-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x512 : Shape := ⟨2, ![5000, 512]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x64_S5000x64_1_0_0_1_n_n_wf : DotDims.WF S5000x512 S512x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x32, .f32⟩
  | 5 => ⟨S32, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000, .i32⟩
  | 70 => ⟨S1x1600000, .i32⟩
  | 71 => ⟨S1600000, .i32⟩
  | 72 => ⟨S1700000, .i32⟩
  | 73 => ⟨S1x1600000, .i32⟩
  | 74 => ⟨S1600000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S100000x32, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x32, .f32⟩
  | 119 => ⟨S1700000x1, .f32⟩
  | 120 => ⟨S1700000x32, .f32⟩
  | 121 => ⟨S1700000x32, .f32⟩
  | 122 => ⟨S_, .f32⟩
  | 123 => ⟨S100000x32, .f32⟩
  | 124 => ⟨S1700000x1, .i32⟩
  | 125 => ⟨S100000x32, .f32⟩
  | 126 => ⟨S1x32, .f32⟩
  | 127 => ⟨S100000x32, .f32⟩
  | _ => ⟨S100000x512, .f32⟩

abbrev hbmTy0_1 (i : Nat) : BufTy := match i % 128 with
  | 0 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel program's run with its two results named.

  The program is eight segments: three stretches of host operations, the first matrix-product region, two stretches,
  the second region, a last stretch. The frame's fold of buffer contents through those segments ends at `Gen.W8`;
  every weakly fair execution terminates with every unscoped buffer at that fold's contents. Read at the two result
  buffers (the rectified first layer and the second layer) and at the six arguments this is the run below: each
  result at `Gen.W8` of its buffer, each argument as launched.
-/
import proofs.«111817_j54262616818360_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the
    last boundary's contents and the arguments as launched. -/
theorem run_results : θ_run defs (onTc (τ := τ) (main (F := F))) ⟨m, fun _ => 0, ρ⟩ (fun r => ∀ c : Dev nD,
      r.2.mem ((c.tc : Thread nD τ).loc main_v47) = W8 m ρ c (Proc.devRef .tc main_v47)
      ∧ r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v47 (by decide)),
       h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.Spec.lean ====
/-
  The graph convolution's host side as functions of its inputs.

  A layer of the network is  out = D^(-1/2) (A + I) D^(-1/2) (X W) + b : the edge list, extended by one self loop per node,
  gives every edge a source and a target; the degree of a node counts the edges that end in it; an edge's weight is
  dinv(source) · dinv(target) with dinv = 1/sqrt(degree) where the degree is positive and 0 elsewhere; the layer gathers
  the rows of the dense product H = X W at the edges' sources, scales each by its edge's weight, adds the scaled rows up
  per target node, and adds the bias. The first layer ends in a rectifier, the second does not.

  Everything here is a function of the edge list, of the dense product handed in (`h`, `z`) and of the bias: how the
  dense product is computed — by one whole matrix product, or row block by row block — is not this file's business.
  The operations are the host's, spelt as the printed programs spell them (the records and shape relations are the
  idealized kernel program's), so that either program's composed result term is one of these functions by unfolding.
-/
import proofs.«111817_j54262616818360_1_alg».proof.KernelIdeal

noncomputable section

namespace Cert.KernelIdeal.Spec

open Idealize.ShloMosaic Cert.KernelIdeal Cert.KernelIdeal.Facts₀ Cert.KernelIdeal.Facts

variable {F : FTy → Type} [FloatOps F] [Facts]

/-- The edges' sources: row 0 of the edge list, then the nodes 0 … 99999 (the self loops). -/
def srcOf (ei : IVec S2x1600000 32) : IVec S1700000 32 :=
  concatenate S1700000 0 [⟨S1600000, shapeCast S1600000 (extractStridedSlice S1x1600000 ![0, 0] ei slices_S2x1600000_S1x1600000_0_0) shapeCasts_S1x1600000_S1600000⟩, ⟨S100000, iotaInDim S100000 32 0⟩] concatenates_S1600000_S100000_S1700000_d0

/-- The edges' targets: row 1 of the edge list, then the nodes 0 … 99999. -/
def dstOf (ei : IVec S2x1600000 32) : IVec S1700000 32 :=
  concatenate S1700000 0 [⟨S1600000, shapeCast S1600000 (extractStridedSlice S1x1600000 ![1, 0] ei slices_S2x1600000_S1x1600000_1_0) shapeCasts_S1x1600000_S1600000⟩, ⟨S100000, iotaInDim S100000 32 0⟩] concatenates_S1600000_S100000_S1700000_d0

/-- A node number as the gather reads it: a negative one counted from the end (100000 added), as a one-column table. -/
def wrapIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree of every node: a one added at the target of every edge. -/
def degOf (dst : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- 1/sqrt(degree) where the degree is positive, 0 elsewhere. -/
def dinvOf (dst : IVec S1700000 32) : FVec F S100000 .f32 :=
  select (cmpf .ogt (degOf (F := F) dst) (broadcastInDim S100000 ![] bcast_S_S100000 (constant S_ .f32 0x00000000#32)))
    (Host.rsqrt (degOf dst))
    (broadcastInDim S100000 ![] bcast_S_S100000 (id (constant S_ .f32 0x00000000#32)))

/-- Every edge's weight: dinv at its source times dinv at its target. -/
def normOf (src dst : IVec S1700000 32) : FVec F S1700000 .f32 :=
  mulf (Host.gather gather_S100000_S1700000x1_S1700000_n_0_n_n_0_1_1 (dinvOf dst) (wrapIdx src))
    (Host.gather gather_S100000_S1700000x1_S1700000_n_0_n_n_0_1_1 (dinvOf dst) (wrapIdx dst))

/-- The first layer from its dense product `h` (100000 × 64): gather the sources' rows, scale by the edges' weights,
    add up per target, add the bias, rectify. -/
def layer1Of (src dst : IVec S1700000 32) (nrm : FVec F S1700000 .f32) (h : FVec F S100000x64 .f32) (b : FVec F S64 .f32) :
    FVec F S100000x64 .f32 :=
  maximumf
    (addf
      (Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 dst)
        (mulf (Host.gather gather_S100000x64_S1700000x1_S1700000x64_1_0_n_n_0_1_164 h (wrapIdx src))
          (broadcastInDim S1700000x64 ![0, 1] bcast_S1700000x1_S1700000x64_0_1
            (broadcastInDim S1700000x1 ![0] bcast_S1700000_S1700000x1_0 nrm))))
      (broadcastInDim S100000x64 ![0, 1] bcast_S1x64_S100000x64_0_1 (broadcastInDim S1x64 ![1] bcast_S64_S1x64_1 b)))
    (broadcastInDim S100000x64 ![] bcast_S_S100000x64 (constant S_ .f32 0x00000000#32))

/-- The second layer from its dense product `z` (100000 × 32): the same aggregation and bias, no rectifier. -/
def layer2Of (src dst : IVec S1700000 32) (nrm : FVec F S1700000 .f32) (z : FVec F S100000x32 .f32) (b : FVec F S32 .f32) :
    FVec F S100000x32 .f32 :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 dst)
      (mulf (Host.gather gather_S100000x32_S1700000x1_S1700000x32_1_0_n_n_0_1_132 z (wrapIdx src))
        (broadcastInDim S1700000x32 ![0, 1] bcast_S1700000x1_S1700000x32_0_1
          (broadcastInDim S1700000x1 ![0] bcast_S1700000_S1700000x1_0 nrm))))
    (broadcastInDim S100000x32 ![0, 1] bcast_S1x32_S100000x32_0_1 (broadcastInDim S1x32 ![1] bcast_S32_S1x32_1 b))

/-- The first layer as a function of the edge list, its dense product and its bias. -/
def layer1 (ei : IVec S2x1600000 32) (h : FVec F S100000x64 .f32) (b : FVec F S64 .f32) : FVec F S100000x64 .f32 :=
  layer1Of (srcOf ei) (dstOf ei) (normOf (srcOf ei) (dstOf ei)) h b

/-- The second layer as a function of the edge list, its dense product and its bias. -/
def layer2 (ei : IVec S2x1600000 32) (z : FVec F S100000x32 .f32) (b : FVec F S32 .f32) : FVec F S100000x32 .f32 :=
  layer2Of (srcOf ei) (dstOf ei) (normOf (srcOf ei) (dstOf ei)) z b

end Cert.KernelIdeal.Spec

end
-- ==== Proof.HostChain.lean ====
/-
  The idealized kernel program's host side, read: what its two result buffers hold at the last boundary, as the
  layer functions of Spec applied to the two regions' result arrays.

  The fold of buffer contents through the program's segments (`Gen.W0` … `Gen.W8`) is read buffer by buffer:
    * before the first region the host computes, from the edge list alone, the edges' sources and targets and their
      weights; the arguments are untouched;
    * the first region writes only its result array; between the regions the host gathers that array's rows at the
      sources, scales, adds up per target, adds the first bias and rectifies: the first layer, which is also the
      second region's left operand;
    * the second region writes only its result array; after it the host aggregates that array in the same way and adds
      the second bias: the second layer.
  A buffer that a stretch of host operations does not write, and that a region neither writes nor stages as its
  result, keeps its contents across it.
-/
import proofs.«111817_j54262616818360_1_alg».proof.Proof.Gen.KernelIdeal.Frame
import proofs.«111817_j54262616818360_1_alg».proof.Proof.Spec
import Idealize.ShloMosaic.Lib.StableHlo.Run

set_option maxRecDepth 16384

noncomputable section

namespace Cert.KernelIdeal.HostChain

open Idealize.ShloMosaic Idealize.ShloMosaic.TcCoe Idealize.SL.Sem Idealize.ShloMosaic.StableHlo
open Idealize.ShloMosaic.Pipeline (Dat)
open Cert.KernelIdeal Cert.KernelIdeal.Gen Cert.KernelIdeal.Spec

variable {F : FTy → Type} [FloatOps F]
variable (m : (ℓ : Loc nD τ sig) → Buf (Elt F) ℓ) (ρ : Dev nD → PrngReg)

/-! ## Before the first region -/

/-- The edges' sources, as the first region finds them. -/
theorem W3_src (c : Dev nD) : W3 m ρ c (Proc.devRef .tc main_v3) = srcOf (m ((c.tc : Thread nD τ).loc main_arg1)) := by
  show StableHlo.after hostOps0_2 (StableHlo.after hostOps0_1 (StableHlo.after hostOps0 (W0 m ρ c))) (Proc.devRef .tc main_v3) = _
  after_results_simp
  rfl

/-- The edges' targets, as the first region finds them. -/
theorem W3_dst (c : Dev nD) : W3 m ρ c (Proc.devRef .tc main_v6) = dstOf (m ((c.tc : Thread nD τ).loc main_arg1)) := by
  show StableHlo.after hostOps0_2 (StableHlo.after hostOps0_1 (StableHlo.after hostOps0 (W0 m ρ c))) (Proc.devRef .tc main_v6) = _
  after_results_simp
  rfl

/-- The edges' weights, as the first region finds them. -/
theorem W3_nrm (c : Dev nD) : W3 m ρ c (Proc.devRef .tc main_v29)
    = normOf (F := F) (srcOf (m ((c.tc : Thread nD τ).loc main_arg1))) (dstOf (m ((c.tc : Thread nD τ).loc main_arg1))) := by
  show StableHlo.after hostOps0_2 (StableHlo.after hostOps0_1 (StableHlo.after hostOps0 (W0 m ρ c))) (Proc.devRef .tc main_v29) = _
  after_results_simp
  rfl

/-- The arguments, as the first region finds them. -/
theorem W3_arg0 (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem W3_arg2 (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp
theorem W3_arg3 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
theorem W3_arg4 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp
theorem W3_arg5 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

/-! ## Between the regions -/

/-- The first region's result array, at its exit, is what its pipeline leaves. -/
theorem W4_h (c : Dev nD) : W4 m ρ c (Proc.devRef .tc main_v30) = (dat0 (V3 m ρ) c).arrAt 2 cfg0.N := W4_arr m ρ c 2

/-- The first layer at the second region's entry, from the buffers at the first region's exit. -/
theorem W6_layer1Of (c : Dev nD) : W6 m ρ c (Proc.devRef .tc main_v47)
    = layer1Of (F := F) (W4 m ρ c (Proc.devRef .tc main_v3)) (W4 m ρ c (Proc.devRef .tc main_v6)) (W4 m ρ c (Proc.devRef .tc main_v29))
        (W4 m ρ c (Proc.devRef .tc main_v30)) (W4 m ρ c (Proc.devRef .tc main_arg3)) := by
  show StableHlo.after hostOps1_1 (StableHlo.after hostOps1 (W4 m ρ c)) (Proc.devRef .tc main_v47) = _
  after_results_simp
  rfl

/-- THE FIRST LAYER at the second region's entry: the layer function of the edge list, the first region's result
    array and the first bias. -/
theorem W6_layer1 (c : Dev nD) : W6 m ρ c (Proc.devRef .tc main_v47)
    = layer1 (F := F) (m ((c.tc : Thread nD τ).loc main_arg1)) ((dat0 (V3 m ρ) c).arrAt 2 cfg0.N) (m ((c.tc : Thread nD τ).loc main_arg3)) := by
  rw [W6_layer1Of, W4_h, W4_of_ne m ρ c main_v3 (by decide), W4_of_ne m ρ c main_v6 (by decide), W4_of_ne m ρ c main_v29 (by decide),
    W4_of_ne m ρ c main_arg3 (by decide), W3_src, W3_dst, W3_nrm, W3_arg3]
  rfl

/-- What the stretches between the regions leave alone. -/
theorem W6_src (c : Dev nD) : W6 m ρ c (Proc.devRef .tc main_v3) = srcOf (m ((c.tc : Thread nD τ).loc main_arg1)) := by
  have e : W6 m ρ c (Proc.devRef .tc main_v3) = W4 m ρ c (Proc.devRef .tc main_v3) := by
    show StableHlo.after hostOps1_1 (StableHlo.after hostOps1 (W4 m ρ c)) (Proc.devRef .tc main_v3) = _
    after_results_simp
  rw [e, W4_of_ne m ρ c main_v3 (by decide), W3_src]
theorem W6_dst (c : Dev nD) : W6 m ρ c (Proc.devRef .tc main_v6) = dstOf (m ((c.tc : Thread nD τ).loc main_arg1)) := by
  have e : W6 m ρ c (Proc.devRef .tc main_v6) = W4 m ρ c (Proc.devRef .tc main_v6) := by
    show StableHlo.after hostOps1_1 (StableHlo.after hostOps1 (W4 m ρ c)) (Proc.devRef .tc main_v6) = _
    after_results_simp
  rw [e, W4_of_ne m ρ c main_v6 (by decide), W3_dst]
theorem W6_nrm (c : Dev nD) : W6 m ρ c (Proc.devRef .tc main_v29)
    = normOf (F := F) (srcOf (m ((c.tc : Thread nD τ).loc main_arg1))) (dstOf (m ((c.tc : Thread nD τ).loc main_arg1))) := by
  have e : W6 m ρ c (Proc.devRef .tc main_v29) = W4 m ρ c (Proc.devRef .tc main_v29) := by
    show StableHlo.after hostOps1_1 (StableHlo.after hostOps1 (W4 m ρ c)) (Proc.devRef .tc main_v29) = _
    after_results_simp
  rw [e, W4_of_ne m ρ c main_v29 (by decide), W3_nrm]
theorem W6_arg4 (c : Dev nD) : W6 m ρ c (Proc.devRef .tc main_arg4) = m ((c.tc : Thread nD τ).loc main_arg4) := by
  have e : W6 m ρ c (Proc.devRef .tc main_arg4) = W4 m ρ c (Proc.devRef .tc main_arg4) := by
    show StableHlo.after hostOps1_1 (StableHlo.after hostOps1 (W4 m ρ c)) (Proc.devRef .tc main_arg4) = _
    after_results_simp
  rw [e, W4_of_ne m ρ c main_arg4 (by decide), W3_arg4]
theorem W6_arg5 (c : Dev nD) : W6 m ρ c (Proc.devRef .tc main_arg5) = m ((c.tc : Thread nD τ).loc main_arg5) := by
  have e : W6 m ρ c (Proc.devRef .tc main_arg5) = W4 m ρ c (Proc.devRef .tc main_arg5) := by
    show StableHlo.after hostOps1_1 (StableHlo.after hostOps1 (W4 m ρ c)) (Proc.devRef .tc main_arg5) = _
    after_results_simp
  rw [e, W4_of_ne m ρ c main_arg5 (by decide), W3_arg5]

/-! ## After the second region -/

/-- The second region's result array, at its exit, is what its pipeline leaves. -/
theorem W7_z (c : Dev nD) : W7 m ρ c (Proc.devRef .tc main_v48) = (dat1 (V6 m ρ) c).arrAt 2 cfg1.N := W7_arr m ρ c 2

/-- The second region leaves its left operand, the first layer, as it found it. -/
theorem W7_layer1 (c : Dev nD) : W7 m ρ c (Proc.devRef .tc main_v47) = W6 m ρ c (Proc.devRef .tc main_v47) :=
  (W7_arr m ρ c 0).trans (((dat1 (V6 m ρ) c).arrAt_in 0 rfl _).trans (A_eq1 (V6 m ρ) c 0))

/-- The second layer at the last boundary, from the buffers at the second region's exit. -/
theorem W8_layer2Of (c : Dev nD) : W8 m ρ c (Proc.devRef .tc main_v64)
    = layer2Of (F := F) (W7 m ρ c (Proc.devRef .tc main_v3)) (W7 m ρ c (Proc.devRef .tc main_v6)) (W7 m ρ c (Proc.devRef .tc main_v29))
        (W7 m ρ c (Proc.devRef .tc main_v48)) (W7 m ρ c (Proc.devRef .tc main_arg5)) := by
  show StableHlo.after hostOps2 (W7 m ρ c) (Proc.devRef .tc main_v64) = _
  after_results_simp
  rfl

/-- THE SECOND RESULT at the last boundary: the second layer function of the edge list, the second region's result
    array and the second bias. -/
theorem W8_layer2 (c : Dev nD) : W8 m ρ c (Proc.devRef .tc main_v64)
    = layer2 (F := F) (m ((c.tc : Thread nD τ).loc main_arg1)) ((dat1 (V6 m ρ) c).arrAt 2 cfg1.N) (m ((c.tc : Thread nD τ).loc main_arg5)) := by
  rw [W8_layer2Of, W7_z, W7_of_ne m ρ c main_v3 (by decide), W7_of_ne m ρ c main_v6 (by decide), W7_of_ne m ρ c main_v29 (by decide),
    W7_of_ne m ρ c main_arg5 (by decide), W6_src, W6_dst, W6_nrm, W6_arg5]
  rfl

/-- THE FIRST RESULT at the last boundary: the first layer, which the last stretch does not write. -/
theorem W8_layer1 (c : Dev nD) : W8 m ρ c (Proc.devRef .tc main_v47)
    = layer1 (F := F) (m ((c.tc : Thread nD τ).loc main_arg1)) ((dat0 (V3 m ρ) c).arrAt 2 cfg0.N) (m ((c.tc : Thread nD τ).loc main_arg3)) := by
  have e : W8 m ρ c (Proc.devRef .tc main_v47) = W7 m ρ c (Proc.devRef .tc main_v47) := by
    show StableHlo.after hostOps2 (W7 m ρ c) (Proc.devRef .tc main_v47) = _
    after_results_simp
  rw [e, W7_layer1, W6_layer1]

/-! ## The regions' operand arrays, as each region finds them -/

/-- The first region's operands are the first two float arguments. -/
theorem V3_arg0 (c : Dev nD) : V3 m ρ c main_arg0 = m ((c.tc : Thread nD τ).loc main_arg0) := W3_arg0 m ρ c
theorem V3_arg2 (c : Dev nD) : V3 m ρ c main_arg2 = m ((c.tc : Thread nD τ).loc main_arg2) := W3_arg2 m ρ c

/-- The second region's left operand is the first layer; its right operand is the second weight matrix. -/
theorem V6_layer1 (c : Dev nD) : V6 m ρ c main_v47
    = layer1 (F := F) (m ((c.tc : Thread nD τ).loc main_arg1)) ((dat0 (V3 m ρ) c).arrAt 2 cfg0.N) (m ((c.tc : Thread nD τ).loc main_arg3)) :=
  W6_layer1 m ρ c
theorem V6_arg4 (c : Dev nD) : V6 m ρ c main_arg4 = m ((c.tc : Thread nD τ).loc main_arg4) := W6_arg4 m ρ c

end Cert.KernelIdeal.HostChain

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«111817_j54262616818360_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Region0.lean ====
/-
  The first matrix-product region, read as ONE matrix product.

  The region walks the 100000 rows of its left operand in 20 blocks of 5000 rows. At grid point t it loads rows
  5000·t … 5000·t + 4999 of the left operand (all 512 columns) and the whole 512×64 right operand, multiplies them
  (the operands rounded to bf16 on the way in: over the extended reals a change of format is the identity) into a zero
  accumulator, and writes the 5000×64 product back as rows 5000·t … of the result. Entry (p, q) of that block is
  Σ_k left(5000·t + p, k) · right(k, q), which is entry (5000·t + p, q) of the whole product left · right: every
  block written back is a block of one function of the operand arrays. The 20 blocks cover the result array, so
  after the region the array is the whole product, whatever the operand arrays hold when the region is entered.
-/
import proofs.«111817_j54262616818360_1_alg».proof.Proof.Gen.KernelIdeal.Frame
import proofs.«111817_j54262616818360_1_alg».proof.Proof.LibDotGeneralPlain
import Idealize.ShloMosaic.Lib.Pipeline.Value

set_option maxRecDepth 16384

noncomputable section

open scoped BigOperators

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.LibMatmulPlain Cert.LibDotGeneralPlain

/-- The whole product of a 100000×512 matrix and a 512×64 matrix over the extended reals. -/
abbrev wholeProd (X : S100000x512.Idx → EReal) (Wt : S512x64.Idx → EReal) : S100000x64.Idx → EReal :=
  matProd (M := 100000) (K := 512) (N := 64) X Wt

theorem hz : (![0, 0] : Fin 2 → Nat) = fun _ => 0 := funext fun a => by fin_cases a <;> rfl

/-- The body's payload at an entry: the sum over the contracted axis of the loaded blocks' products. -/
theorem pay_apply (x0 : Vec Ideal S5000x512 .f32) (x1 : Vec Ideal S512x64 .f32) (p : Fin 5000) (q : Fin 64) :
    k0_pay1 x0 x1 (ix2 p q) = ∑ k : Fin 512, x0 (ix2 p k) * x1 (ix2 k q) := by
  unfold k0_pay1
  exact matmul_plain_zero_apply (M := 5000) (K := 512) (N := 64) dot_S5000x512_S512x64_S5000x64_1_0_0_1_n_n rfl none (truncf .bf16 x0 Facts₀.bitsLt_bf16_f32) (truncf .bf16 x1 Facts₀.bitsLt_bf16_f32) p q

/-- The payload of a row block of `X` and of the whole `Wt`, at an entry, is the whole product at the entry's place in
    the array: same column, the block's row offset added to the row. -/
theorem pay_eq_wholeProd (X : S100000x512.Idx → EReal) (Wt : S512x64.Idx → EReal)
    (x0 : Vec Ideal S5000x512 .f32) (x1 : Vec Ideal S512x64 .f32) (y : S5000x64.Idx) (i : S100000x64.Idx)
    (hq : (i 1).val = (y 1).val)
    (h0 : ∀ k : Fin 512, x0 (ix2 (y 0) k) = X (ix2 (i 0) k))
    (h1 : x1 = Wt) : k0_pay1 x0 x1 y = wholeProd X Wt i := by
  subst h1
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hqq : q' = q := Fin.ext hq
  subst hqq
  refine (pay_apply x0 x1 p q').trans ?_
  exact Finset.sum_congr rfl fun k _ => congrArg (· * x1 (ix2 k q')) (h0 k)

section Blocks

variable (V : (c : Dev nD) → (b : Ref sig .tc) → Buf (Elt Ideal) ((c : Thread nD τ).loc b))

/-- The printed index maps over the grid: the left operand's and the result's blocks are block row t, the right
    operand's block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row is some point's. -/
theorem idx_onto : ∀ b : Fin 20, ∃ t : Fin cfg0.N, win0_2.index t (0 : Fin 2) = b.val ∧ win0_2.index t (1 : Fin 2) = 0 :=
  (by decide +kernel : ∀ b : Fin 20, ∃ t : Fin grid0.N, win0_2.index t (0 : Fin 2) = b.val ∧ win0_2.index t (1 : Fin 2) = 0)

/-- The left operand's block at point `t` is rows 5000·t … 5000·t + 4999 of its array. -/
theorem lhs_block_apply (c : Dev nD) (t : Fin cfg0.N) (x : S5000x512.Idx) (k : S100000x512.Idx)
    (hk0 : (k 0).val = 5000 * t.val + (x 0).val) (hk1 : (k 1).val = (x 1).val) :
    (iblk0 V c 0 t : Vec Ideal S5000x512 .f32) x = (V c main_arg0 : S100000x512.Idx → EReal) k := by
  obtain ⟨e0, e1, -, -, -, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 512 + 1 * (x 1).val = (k 1).val; rw [e1, hk1]; omega

/-- The right operand's block at every point is its whole array. -/
theorem rhs_block_eq (c : Dev nD) (t : Fin cfg0.N) :
    (iblk0 V c 1 t : Vec Ideal S512x64 .f32) = (V c main_arg2 : S512x64.Idx → EReal) := by
  obtain ⟨-, -, e2, e3, -, -⟩ := idx_facts t
  funext x
  unfold iblk0
  rw [View.read_apply]
  show V c main_arg2 _ = V c main_arg2 _
  congr 1
  funext a
  apply Fin.ext
  match a with
  | ⟨0, _⟩ => show win0_1.index t (0 : Fin 2) * 512 + 1 * (x 0).val = (x 0).val; rw [e2]; omega
  | ⟨1, _⟩ => show win0_1.index t (1 : Fin 2) * 64 + 1 * (x 1).val = (x 1).val; rw [e3]; omega

/-- WHAT POINT `t` WRITES BACK is block `t` of the whole product of the operand arrays as the region finds them. -/
theorem flushed_eq (c : Dev nD) (t : Fin cfg0.N) :
    (dat0 V c).flushed 2 t = ((cfg0.win 2).blk t).view.read (Elt Ideal) (wholeProd (V c main_arg0) (V c main_arg2)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨-, -, -, -, e4, e5⟩ := idx_facts t
  funext j
  show k0_pay1 (iblk0 V c 0 t) (iblk0 V c 1 t) j = wholeProd (V c main_arg0) (V c main_arg2) (((cfg0.win 2).blk t).view.emb j)
  refine pay_eq_wholeProd (V c main_arg0) (V c main_arg2) (iblk0 V c 0 t) (iblk0 V c 1 t) j (((cfg0.win 2).blk t).view.emb j) ?_ ?_ ?_
  · show win0_2.index t (1 : Fin 2) * 64 + 1 * (j 1).val = (j 1).val
    rw [e5]; omega
  · intro k
    refine lhs_block_apply V c t _ _ ?_ rfl
    show win0_2.index t (0 : Fin 2) * 5000 + 1 * (j 0).val = 5000 * t.val + (j 0).val
    rw [e4]; omega
  · exact rhs_block_eq V c t

/-- An index of the result array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- THE RESULT ARRAY AFTER THE REGION is the whole product of the operand arrays as the region finds them: row r
    lies in the block of point r / 5000. -/
theorem final (c : Dev nD) : (dat0 V c).arrAt 2 cfg0.N = wholeProd (V c main_arg0) (V c main_arg2) :=
  (dat0 V c).arrAt_eq_of_cover 2 (wholeProd (V c main_arg0) (V c main_arg2)) (fun t _ => flushed_eq V c t) fun i => by
    have hi0 : (i 0).val < 100000 := (i 0).isLt
    have hi1 : (i 1).val < 64 := (i 1).isLt
    obtain ⟨t, ht0, ht1⟩ := idx_onto ⟨(i 0).val / 5000, by omega⟩
    refine ⟨t, flush0_2 t, ?_⟩
    rw [mem_blk]
    intro a
    match a with
    | ⟨0, _⟩ => show win0_2.index t (0 : Fin 2) * 5000 ≤ (i 0).val ∧ (i 0).val < win0_2.index t (0 : Fin 2) * 5000 + 5000
                rw [ht0]; show (i 0).val / 5000 * 5000 ≤ (i 0).val ∧ (i 0).val < (i 0).val / 5000 * 5000 + 5000; omega
    | ⟨1, _⟩ => show win0_2.index t (1 : Fin 2) * 64 ≤ (i 1).val ∧ (i 1).val < win0_2.index t (1 : Fin 2) * 64 + 64
                rw [ht1]; omega

end Blocks

end Cert.KernelIdeal.Region0

end
-- ==== Proof.Region1.lean ====
/-
  The second matrix-product region, read as ONE matrix product.

  The region walks the 100000 rows of its left operand in 20 blocks of 5000 rows. At grid point t it loads rows
  5000·t … 5000·t + 4999 of the left operand (all 64 columns) and the whole 64×32 right operand, multiplies them
  (the operands rounded to bf16 on the way in: over the extended reals a change of format is the identity) into a zero
  accumulator, and writes the 5000×32 product back as rows 5000·t … of the result. Entry (p, q) of that block is
  Σ_k left(5000·t + p, k) · right(k, q), which is entry (5000·t + p, q) of the whole product left · right: every
  block written back is a block of one function of the operand arrays. The 20 blocks cover the result array, so
  after the region the array is the whole product, whatever the operand arrays hold when the region is entered.
-/
import proofs.«111817_j54262616818360_1_alg».proof.Proof.Gen.KernelIdeal.Frame
import proofs.«111817_j54262616818360_1_alg».proof.Proof.LibDotGeneralPlain
import Idealize.ShloMosaic.Lib.Pipeline.Value

set_option maxRecDepth 16384

noncomputable section

open scoped BigOperators

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Facts₀ Cert.LibMatmulPlain Cert.LibDotGeneralPlain

/-- The whole product of a 100000×64 matrix and a 64×32 matrix over the extended reals. -/
abbrev wholeProd (X : S100000x64.Idx → EReal) (Wt : S64x32.Idx → EReal) : S100000x32.Idx → EReal :=
  matProd (M := 100000) (K := 64) (N := 32) X Wt

theorem hz : (![0, 0] : Fin 2 → Nat) = fun _ => 0 := funext fun a => by fin_cases a <;> rfl

/-- The body's payload at an entry: the sum over the contracted axis of the loaded blocks' products. -/
theorem pay_apply (x0 : Vec Ideal S5000x64 .f32) (x1 : Vec Ideal S64x32 .f32) (p : Fin 5000) (q : Fin 32) :
    k1_pay1 x0 x1 (ix2 p q) = ∑ k : Fin 64, x0 (ix2 p k) * x1 (ix2 k q) := by
  unfold k1_pay1
  refine (matmul_plain_zero_apply (M := 5000) (K := 64) (N := 32) dot_S5000x64_S64x32_S5000x32_1_0_0_1_n_n rfl none (truncf .bf16 (shapeCast S5000x64 x0 Facts₀.shapeCasts_S5000x64_S5000x64) Facts₀.bitsLt_bf16_f32) (truncf .bf16 x1 Facts₀.bitsLt_bf16_f32) p q).trans ?_
  rw [shapeCast_self]
  rfl

/-- The payload of a row block of `X` and of the whole `Wt`, at an entry, is the whole product at the entry's place in
    the array: same column, the block's row offset added to the row. -/
theorem pay_eq_wholeProd (X : S100000x64.Idx → EReal) (Wt : S64x32.Idx → EReal)
    (x0 : Vec Ideal S5000x64 .f32) (x1 : Vec Ideal S64x32 .f32) (y : S5000x32.Idx) (i : S100000x32.Idx)
    (hq : (i 1).val = (y 1).val)
    (h0 : ∀ k : Fin 64, x0 (ix2 (y 0) k) = X (ix2 (i 0) k))
    (h1 : x1 = Wt) : k1_pay1 x0 x1 y = wholeProd X Wt i := by
  subst h1
  obtain ⟨p, q, rfl⟩ : ∃ (p : Fin 5000) (q : Fin 32), y = ix2 p q := ⟨y 0, y 1, eq_ix2 y⟩
  obtain ⟨r, q', rfl⟩ : ∃ (r : Fin 100000) (q' : Fin 32), i = ix2 r q' := ⟨i 0, i 1, eq_ix2 i⟩
  have hqq : q' = q := Fin.ext hq
  subst hqq
  refine (pay_apply x0 x1 p q').trans ?_
  exact Finset.sum_congr rfl fun k _ => congrArg (· * x1 (ix2 k q')) (h0 k)

section Blocks

variable (V : (c : Dev nD) → (b : Ref sig .tc) → Buf (Elt Ideal) ((c : Thread nD τ).loc b))

/-- The printed index maps over the grid: the left operand's and the result's blocks are block row t, the right
    operand's block is the whole matrix. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row is some point's. -/
theorem idx_onto : ∀ b : Fin 20, ∃ t : Fin cfg1.N, win1_2.index t (0 : Fin 2) = b.val ∧ win1_2.index t (1 : Fin 2) = 0 :=
  (by decide +kernel : ∀ b : Fin 20, ∃ t : Fin grid1.N, win1_2.index t (0 : Fin 2) = b.val ∧ win1_2.index t (1 : Fin 2) = 0)

/-- The left operand's block at point `t` is rows 5000·t … 5000·t + 4999 of its array. -/
theorem lhs_block_apply (c : Dev nD) (t : Fin cfg1.N) (x : S5000x64.Idx) (k : S100000x64.Idx)
    (hk0 : (k 0).val = 5000 * t.val + (x 0).val) (hk1 : (k 1).val = (x 1).val) :
    (iblk1 V c 0 t : Vec Ideal S5000x64 .f32) x = (V c main_v47 : S100000x64.Idx → EReal) k := by
  obtain ⟨e0, e1, -, -, -, -⟩ := idx_facts t
  unfold iblk1
  rw [View.read_apply]
  show V c main_v47 _ = V c main_v47 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The right operand's block at every point is its whole array. -/
theorem rhs_block_eq (c : Dev nD) (t : Fin cfg1.N) :
    (iblk1 V c 1 t : Vec Ideal S64x32 .f32) = (V c main_arg4 : S64x32.Idx → EReal) := by
  obtain ⟨-, -, e2, e3, -, -⟩ := idx_facts t
  funext x
  unfold iblk1
  rw [View.read_apply]
  show V c main_arg4 _ = V c main_arg4 _
  congr 1
  funext a
  apply Fin.ext
  match a with
  | ⟨0, _⟩ => show win1_1.index t (0 : Fin 2) * 64 + 1 * (x 0).val = (x 0).val; rw [e2]; omega
  | ⟨1, _⟩ => show win1_1.index t (1 : Fin 2) * 32 + 1 * (x 1).val = (x 1).val; rw [e3]; omega

/-- WHAT POINT `t` WRITES BACK is block `t` of the whole product of the operand arrays as the region finds them. -/
theorem flushed_eq (c : Dev nD) (t : Fin cfg1.N) :
    (dat1 V c).flushed 2 t = ((cfg1.win 2).blk t).view.read (Elt Ideal) (wholeProd (V c main_v47) (V c main_arg4)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x32) hz]
  obtain ⟨-, -, -, -, e4, e5⟩ := idx_facts t
  funext j
  show k1_pay1 (iblk1 V c 0 t) (iblk1 V c 1 t) j = wholeProd (V c main_v47) (V c main_arg4) (((cfg1.win 2).blk t).view.emb j)
  refine pay_eq_wholeProd (V c main_v47) (V c main_arg4) (iblk1 V c 0 t) (iblk1 V c 1 t) j (((cfg1.win 2).blk t).view.emb j) ?_ ?_ ?_
  · show win1_2.index t (1 : Fin 2) * 32 + 1 * (j 1).val = (j 1).val
    rw [e5]; omega
  · intro k
    refine lhs_block_apply V c t _ _ ?_ rfl
    show win1_2.index t (0 : Fin 2) * 5000 + 1 * (j 0).val = 5000 * t.val + (j 0).val
    rw [e4]; omega
  · exact rhs_block_eq V c t

/-- An index of the result array is in point `t`'s block iff each coordinate is in the block's range on its axis. -/
theorem mem_blk (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- THE RESULT ARRAY AFTER THE REGION is the whole product of the operand arrays as the region finds them: row r
    lies in the block of point r / 5000. -/
theorem final (c : Dev nD) : (dat1 V c).arrAt 2 cfg1.N = wholeProd (V c main_v47) (V c main_arg4) :=
  (dat1 V c).arrAt_eq_of_cover 2 (wholeProd (V c main_v47) (V c main_arg4)) (fun t _ => flushed_eq V c t) fun i => by
    have hi0 : (i 0).val < 100000 := (i 0).isLt
    have hi1 : (i 1).val < 32 := (i 1).isLt
    obtain ⟨t, ht0, ht1⟩ := idx_onto ⟨(i 0).val / 5000, by omega⟩
    refine ⟨t, flush1_2 t, ?_⟩
    rw [mem_blk]
    intro a
    match a with
    | ⟨0, _⟩ => show win1_2.index t (0 : Fin 2) * 5000 ≤ (i 0).val ∧ (i 0).val < win1_2.index t (0 : Fin 2) * 5000 + 5000
                rw [ht0]; show (i 0).val / 5000 * 5000 ≤ (i 0).val ∧ (i 0).val < (i 0).val / 5000 * 5000 + 5000; omega
    | ⟨1, _⟩ => show win1_2.index t (1 : Fin 2) * 32 ≤ (i 1).val ∧ (i 1).val < win1_2.index t (1 : Fin 2) * 32 + 32
                rw [ht1]; omega

end Blocks

end Cert.KernelIdeal.Region1

end
-- ==== Proof.KernelValue.lean ====
/-
  The idealized kernel program's run with its results as functions of the arguments, over the extended reals.

  Each region leaves in its result array the whole product of its operand arrays (Region0, Region1); the host side
  turns the first product into the first layer, which is the second region's left operand, and the second product
  into the second layer (HostChain). So the first result is  layer1 (edges, X · W1, b1)  and the second is
  layer2 (edges, layer1 (edges, X · W1, b1) · W2, b2),  both products the plain matrix product `matProd`.
-/
import proofs.«111817_j54262616818360_1_alg».proof.Proof.KernelRun
import proofs.«111817_j54262616818360_1_alg».proof.Proof.HostChain
import proofs.«111817_j54262616818360_1_alg».proof.Proof.Region0
import proofs.«111817_j54262616818360_1_alg».proof.Proof.Region1

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.KernelIdeal.Spec Cert.KernelIdeal.HostChain Cert.KernelIdeal.Result Cert.LibDotGeneralPlain

variable (m : (ℓ : Loc nD τ sig) → Buf (Elt Ideal) ℓ) (ρ : Dev nD → PrngReg)

/-- The first result as a function of the arguments: the first layer of the edge list, X · W1 and the first bias. -/
def first (c : Dev nD) : FVec Ideal S100000x64 .f32 :=
  layer1 (F := Ideal) (m ((c.tc : Thread nD τ).loc main_arg1))
    (matProd (M := 100000) (K := 512) (N := 64) (m ((c.tc : Thread nD τ).loc main_arg0)) (m ((c.tc : Thread nD τ).loc main_arg2)))
    (m ((c.tc : Thread nD τ).loc main_arg3))

/-- The second result as a function of the arguments: the second layer of the edge list, (first result) · W2 and the
    second bias. -/
def second (c : Dev nD) : FVec Ideal S100000x32 .f32 :=
  layer2 (F := Ideal) (m ((c.tc : Thread nD τ).loc main_arg1))
    (matProd (M := 100000) (K := 64) (N := 32) (first m c) (m ((c.tc : Thread nD τ).loc main_arg4)))
    (m ((c.tc : Thread nD τ).loc main_arg5))

/-- The first region's result array is X · W1. -/
theorem prod_first (c : Dev nD) : (dat0 (V3 m ρ) c).arrAt 2 cfg0.N
    = matProd (M := 100000) (K := 512) (N := 64) (m ((c.tc : Thread nD τ).loc main_arg0)) (m ((c.tc : Thread nD τ).loc main_arg2)) := by
  rw [Region0.final (V3 m ρ) c, V3_arg0, V3_arg2]

/-- The second region's result array is (first result) · W2. -/
theorem prod_second (c : Dev nD) : (dat1 (V6 m ρ) c).arrAt 2 cfg1.N
    = matProd (M := 100000) (K := 64) (N := 32) (first m c) (m ((c.tc : Thread nD τ).loc main_arg4)) := by
  rw [Region1.final (V6 m ρ) c, V6_layer1, V6_arg4, prod_first]
  rfl

/-- The first result buffer at the last boundary. -/
theorem W8_first (c : Dev nD) : W8 m ρ c (Proc.devRef .tc main_v47) = first m c := by
  rw [W8_layer1, prod_first]
  rfl

/-- The second result buffer at the last boundary. -/
theorem W8_second (c : Dev nD) : W8 m ρ c (Proc.devRef .tc main_v64) = second m c := by
  rw [W8_layer2, prod_second]
  rfl

/-- THE RUN, READ: every weakly fair execution terminates with the two results at `first` and `second` of the
    arguments, the arguments unchanged. -/
theorem run : θ_run defs (onTc (τ := τ) (main (F := Ideal))) ⟨m, fun _ => 0, ρ⟩ (fun r => ∀ c : Dev nD,
      r.2.mem ((c.tc : Thread nD τ).loc main_v47) = first m c
      ∧ r.2.mem ((c.tc : Thread nD τ).loc main_v64) = second m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W8_first m ρ c), (h c).2.1.trans (W8_second m ρ c), (h c).2.2⟩)
    (run_results (F := Ideal) m ρ)

end Cert.KernelIdeal.Value

end
-- ==== Proof.RefChain.lean ====
/-
  The idealized reference program's two results as the layer functions of Spec.

  The reference computes each layer as one whole matrix product on the host followed by the aggregation; it recomputes
  the edges' sources, targets and weights for the second layer, from the same edge list, so both layers' composed result
  terms are the layer functions of Spec applied to the edge list, a whole product and a bias — the second layer's
  product taking the first result as its left operand. Over the extended reals the host's product is the matrix
  product `matProd`, entry by entry.
-/
import proofs.«111817_j54262616818360_1_alg».proof.Proof.RefRunPatched
import proofs.«111817_j54262616818360_1_alg».proof.Proof.Spec
import proofs.«111817_j54262616818360_1_alg».proof.Proof.LibDotGeneralPlain

set_option maxRecDepth 16384

noncomputable section

namespace Cert.ReferenceIdeal.RefChain

open Idealize.ShloMosaic Idealize.ShloMosaic.TcCoe Idealize.SL.Sem
open Cert.ReferenceIdeal Cert.ReferenceIdeal.RunP Cert.LibDotGeneralPlain

variable [Cert.KernelIdeal.Facts]

section AnyFloat

variable {F : FTy → Type} [FloatOps F]
variable (m : (ℓ : Loc nD τ sig) → Buf (Elt F) ℓ)

/-- The reference's first result is the first layer of the edge list, the whole product X · W1 and the first bias. -/
theorem res_first (c : Dev nD) : res_main_v47 m c
    = Cert.KernelIdeal.Spec.layer1 (F := F) (m ((c.tc : Thread nD τ).loc main_arg1))
        (Host.dotGeneral dot_S100000x512_S512x64_S100000x64_1_0_0_1_n_n none (m ((c.tc : Thread nD τ).loc main_arg0)) (m ((c.tc : Thread nD τ).loc main_arg2)))
        (m ((c.tc : Thread nD τ).loc main_arg3)) := by
  unfold res_main_v47
  rfl

/-- The reference's second result is the second layer of the edge list, the whole product (first result) · W2 and the
    second bias. -/
theorem res_second (c : Dev nD) : res_main_v94 m c
    = Cert.KernelIdeal.Spec.layer2 (F := F) (m ((c.tc : Thread nD τ).loc main_arg1))
        (Host.dotGeneral dot_S100000x64_S64x32_S100000x32_1_0_0_1_n_n none (res_main_v47 m c) (m ((c.tc : Thread nD τ).loc main_arg4)))
        (m ((c.tc : Thread nD τ).loc main_arg5)) := by
  unfold res_main_v94
  rfl

end AnyFloat

variable (m : (ℓ : Loc nD τ sig) → Buf (Elt Ideal) ℓ)

/-- Over the extended reals: the first result with its product as `matProd`. -/
theorem first_val (c : Dev nD) : res_main_v47 m c
    = Cert.KernelIdeal.Spec.layer1 (F := Ideal) (m ((c.tc : Thread nD τ).loc main_arg1))
        (matProd (M := 100000) (K := 512) (N := 64) (m ((c.tc : Thread nD τ).loc main_arg0)) (m ((c.tc : Thread nD τ).loc main_arg2)))
        (m ((c.tc : Thread nD τ).loc main_arg3)) := by
  rw [res_first]
  exact congrArg (fun h => Cert.KernelIdeal.Spec.layer1 (F := Ideal) (m ((c.tc : Thread nD τ).loc main_arg1)) h (m ((c.tc : Thread nD τ).loc main_arg3)))
    (dotGeneral_plain_eq (M := 100000) (K := 512) (N := 64) dot_S100000x512_S512x64_S100000x64_1_0_0_1_n_n rfl none .single _ _)

/-- Over the extended reals: the second result with both products as `matProd`. -/
theorem second_val (c : Dev nD) : res_main_v94 m c
    = Cert.KernelIdeal.Spec.layer2 (F := Ideal) (m ((c.tc : Thread nD τ).loc main_arg1))
        (matProd (M := 100000) (K := 64) (N := 32)
          (Cert.KernelIdeal.Spec.layer1 (F := Ideal) (m ((c.tc : Thread nD τ).loc main_arg1))
            (matProd (M := 100000) (K := 512) (N := 64) (m ((c.tc : Thread nD τ).loc main_arg0)) (m ((c.tc : Thread nD τ).loc main_arg2)))
            (m ((c.tc : Thread nD τ).loc main_arg3)))
          (m ((c.tc : Thread nD τ).loc main_arg4)))
        (m ((c.tc : Thread nD τ).loc main_arg5)) := by
  rw [res_second, first_val]
  exact congrArg (fun z => Cert.KernelIdeal.Spec.layer2 (F := Ideal) (m ((c.tc : Thread nD τ).loc main_arg1)) z (m ((c.tc : Thread nD τ).loc main_arg5)))
    (dotGeneral_plain_eq (M := 100000) (K := 64) (N := 32) dot_S100000x64_S64x32_S100000x32_1_0_0_1_n_n rfl none .single _ _)

end Cert.ReferenceIdeal.RefChain

end
-- ==== Proof.lean ====
/-
  Two graph-convolution layers, the dense products computed by a tiled kernel, against the plain reference.

  Both programs compute, from a node-feature matrix X (100000 × 512), an edge list (2 × 1600000), two weight matrices
  and two biases,
      h = relu (Â (X W1) + b1),      z = Â (h W2) + b2,
  where Â is the degree-normalised adjacency with self loops: the host gathers rows at the edges' sources, scales them
  by dinv(source) · dinv(target), and adds them up at the edges' targets. The kernel program computes the two dense
  products X W1 and h W2 on the TensorCore, 5000 rows at a time (its operands rounded to bf16 on the way into the
  multiplier), and everything else on the host; the reference computes them as whole host products and recomputes the
  normalisation for the second layer.

  Over the extended reals a change of float format is the identity and a product into a zero accumulator is the
  plain sum of products, so each region's 20 row blocks are the blocks of one whole product X W1 (resp. h W2), which is
  the host's product entry by entry. The host sides of the two programs are the same operations on the same edge list,
  so both results are the same functions (Spec's `layer1`, `layer2`) of equal products: no law beyond "a product
  computed block by block is the product" is needed, and the inputs' finiteness is never used.

  Frames: the two kernel programs' are the generated several-region frames; the reference's is its run with the
  results dropped. The idealization rewrote nothing, so `preserves` is trivial.
-/
import proofs.«111817_j54262616818360_1_alg».proof.Defs
import proofs.«111817_j54262616818360_1_alg».proof.Proof.Gen.Kernel
import proofs.«111817_j54262616818360_1_alg».proof.Proof.Gen.Kernel.Skeleton
import proofs.«111817_j54262616818360_1_alg».proof.Proof.Gen.Kernel.Launch
import proofs.«111817_j54262616818360_1_alg».proof.Proof.Gen.Kernel.Points
import proofs.«111817_j54262616818360_1_alg».proof.Proof.Gen.Kernel.Frame
import proofs.«111817_j54262616818360_1_alg».proof.Proof.Gen.KernelIdeal
import proofs.«111817_j54262616818360_1_alg».proof.Proof.Gen.KernelIdeal.Skeleton
import proofs.«111817_j54262616818360_1_alg».proof.Proof.Gen.KernelIdeal.Launch
import proofs.«111817_j54262616818360_1_alg».proof.Proof.Gen.KernelIdeal.Points
import proofs.«111817_j54262616818360_1_alg».proof.Proof.Gen.KernelIdeal.Frame
import proofs.«111817_j54262616818360_1_alg».proof.Proof.Gen.ReferenceIdeal
import proofs.«111817_j54262616818360_1_alg».proof.Proof.Gen.Pre_finite_inputs
import proofs.«111817_j54262616818360_1_alg».proof.Proof.KernelValue
import proofs.«111817_j54262616818360_1_alg».proof.Proof.RefChain
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run, the results dropped. -/
theorem frame_referenceIdeal : Cert.frame_ReferenceIdeal := fun m ρ _ =>
  (θ_run Cert.ReferenceIdeal.defs _ _).mono (fun _ h c => (h c).2.2) (Cert.ReferenceIdeal.RunP.run (F := Ideal) m ρ)

/-- The idealization rewrote no operation. -/
theorem preserves : Cert.preserves_Kernel_KernelIdeal := trivial

/-- From memories agreeing on the arguments both idealized programs end with
    h = layer1 (edges, X · W1, b1) and z = layer2 (edges, h · W2, b2). -/
theorem algebraic : Cert.algebraic_KernelIdeal_ReferenceIdeal := by
  intro m ρ m' ρ' _ hagree
  refine ⟨fun c => Cert.KernelIdeal.Value.first m c, fun c => Cert.KernelIdeal.Value.second m c,
    Cert.KernelIdeal.Value.run m ρ, ?_⟩
  refine (θ_run Cert.ReferenceIdeal.defs _ _).mono (fun _ h c => ?_) (Cert.ReferenceIdeal.RunP.run (F := Ideal) m' ρ')
  obtain ⟨h1, h2, hargs⟩ := h c
  obtain ⟨a0, a1, a2, a3, a4, a5⟩ := hagree c
  refine ⟨h1.trans ?_, h2.trans ?_, hargs⟩
  · rw [Cert.ReferenceIdeal.RefChain.first_val, a0, a1, a2, a3]
    rfl
  · rw [Cert.ReferenceIdeal.RefChain.second_val, a0, a1, a2, a3, a4, a5]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
